-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S8192x128 : Shape := ⟨2, ![8192, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_

variable [Facts]

def fn {F : FTy → Type} [FloatOps F] (main_arg0 : FVec F S4096x128 .f32) (main_arg1 : FVec F S8192x128 .f32) (main_arg2 : FVec F S8192x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192x128 .f32 := Host.absf main_arg2
  let main_cst_2 : FVec F S_ .f32 := constant S_ .f32 0x7F800000#32
  let main_v10 : FVec F S8192x128 .f32 := broadcastInDim S8192x128 ![] bcast_S_S8192x128 main_cst_2
  let main_v11 : IVec S8192x128 1 := cmpf .olt main_v9 main_v10
  let main_c_3 : IVec S_ 1 := constantI S_ 1 1#1
  let main_v12 : IVec S_ 1 := (fun x v => Host.reduce IntOp.andi x v reducesTo_S8192x128_S_d0_1 h_S_) main_v11 main_c_3
  let main_v13 : IVec S_ 1 := andi main_v8 main_v12
  main_v13
-- ==== Kernel.lean ====
abbrev S4096x128 : Shape := ⟨2, ![4096, 128]⟩
abbrev S8192x128 : Shape := ⟨2, ![8192, 128]⟩
abbrev S_ : Shape := ⟨0, ![]⟩
abbrev S8192 : Shape := ⟨1, ![8192]⟩
abbrev S1x8192 : Shape := ⟨2, ![1, 8192]⟩
abbrev S4096x256 : Shape := ⟨2, ![4096, 256]⟩
abbrev S8192x256 : Shape := ⟨2, ![8192, 256]⟩
abbrev S4096x8192 : Shape := ⟨2, ![4096, 8192]⟩
abbrev S1024x256 : Shape := ⟨2, ![1024, 256]⟩
abbrev S1x4096 : Shape := ⟨2, ![1, 4096]⟩
abbrev S1024x4096 : Shape := ⟨2, ![1024, 4096]⟩

abbrev nBuf : Space → Nat
  | .hbm => 35
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S_, .f32⟩
  | .hbm, ⟨5, _⟩ => ⟨S8192x128, .f32⟩
  | .hbm, ⟨6, _⟩ => ⟨S8192x128, .f32⟩
  | .hbm, ⟨7, _⟩ => ⟨S_, .f32⟩
  | .hbm, ⟨8, _⟩ => ⟨S8192x128, .f32⟩
  | .hbm, ⟨9, _⟩ => ⟨S8192x128, .f32⟩
  | .hbm, ⟨10, _⟩ => ⟨S8192x128, .f32⟩
  | .hbm, ⟨11, _⟩ => ⟨S8192x128, .f32⟩
  | .hbm, ⟨12, _⟩ => ⟨S_, .f32⟩
  | .hbm, ⟨13, _⟩ => ⟨S8192, .f32⟩
  | .hbm, ⟨14, _⟩ => ⟨S8192x128, .f32⟩
  | .hbm, ⟨15, _⟩ => ⟨S_, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S1x8192, .f32⟩
  | .hbm, ⟨28, _⟩ => ⟨S4096x128, .f32⟩
  | .hbm, ⟨29, _⟩ => ⟨S_, .f32⟩
  | .hbm, ⟨30, _⟩ => ⟨S4096x128, .f32⟩
  | .hbm, ⟨31, _⟩ => ⟨S4096x128, .f32⟩
  | .hbm, ⟨32, _⟩ => ⟨S4096x256, .f32⟩
  | .hbm, ⟨33, _⟩ => ⟨S8192x256, .f32⟩
  | .hbm, ⟨34, _⟩ => ⟨S4096x8192, .f32⟩
  | .local _ .vmem, ⟨0, _⟩ => ⟨S1024x256, .f32⟩
  | .local _ .vmem, ⟨1, _⟩ => ⟨S1024x256, .f32⟩
  | .local _ .vmem, ⟨2, _⟩ => ⟨S4096x256, .f32⟩
  | .local _ .vmem, ⟨3, _⟩ => ⟨S4096x256, .f32⟩
  | .local _ .vmem, ⟨4, _⟩ => ⟨S1x4096, .f32⟩
  | .local _ .vmem, ⟨5, _⟩ => ⟨S1x4096, .f32⟩
  | .local _ .vmem, ⟨6, _⟩ => ⟨S1024x4096, .f32⟩
  | .local _ .vmem, ⟨7, _⟩ => ⟨S1024x4096, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_cst_4 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_5 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_6 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S8192x128 : S_.BroadcastsInDim S8192x128 (![] : Fin 0 → Fin S8192x128.rank)
  reducesTo_S8192x128_S8192_d1 : S8192x128.ReducesTo [1] S8192
  h_S_ : 0 < S_.numel
  bcast_S_S8192 : S_.BroadcastsInDim S8192 (![] : Fin 0 → Fin S8192.rank)
  shapeCasts_S8192_S1x8192 : S8192.ShapeCasts S1x8192
  bcast_S_S4096x128 : S_.BroadcastsInDim S4096x128 (![] : Fin 0 → Fin S4096x128.rank)
  concatenates_S4096x128_S4096x128_S4096x256_d1 : Shape.Concatenates [S4096x128, S4096x128] S4096x256 1
  concatenates_S8192x128_S8192x128_S8192x256_d1 : Shape.Concatenates [S8192x128, S8192x128] S8192x256 1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S1024x4096 : S1x4096.Broadcasts S1024x4096
  inb_S1024x4096_S1024x4096_0_0 : ∀ a, (![0, 0] : Fin 2 → Nat) a + S1024x4096.size a ≤ S1024x4096.size a
  h_S1024x4096 : 0 < S1024x4096.numel
  dot_S1024x256_S4096x256_S1024x4096_1_1_0_0_n_n_wf : DotDims.WF S1024x256 S4096x256 S1024x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S8192x256.size a
  hwx0_1 : ∀ i : grid0.Coords, EltTy.bits .f32 = 32 ∨ (Rect.block (s := S8192x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x8192.size a
  hwx0_2 : ∀ i : grid0.Coords, EltTy.bits .f32 = 32 ∨ (Rect.block (s := S1x8192) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S4096x8192.size a
  hwx0_3 : ∀ i : grid0.Coords, EltTy.bits .f32 = 32 ∨ (Rect.block (s := S4096x8192) S1024x4096.size (cc0_transform_3 i) (hinb0_3 i)).WholeWords (EltTy.packing .f32)

variable [Facts₀]

def dot_S1024x256_S4096x256_S1024x4096_1_1_0_0_n_n : DotDims S1024x256 S4096x256 S1024x4096 where
  lhsContracting := [1]
  rhsContracting := [1]
  lhsNonContracting := [0]
  rhsNonContracting := [0]
  lhsBatch := []
  rhsBatch := []
  wf := dot_S1024x256_S4096x256_S1024x4096_1_1_0_0_n_n_wf

abbrev win0_0 : Pipeline.Window sig grid0 :=
  Pipeline.Window.ofSpec (Memref.whole main_v19) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1024x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x128 : Shape := ⟨2, ![4096, 128]⟩
abbrev S8192x128 : Shape := ⟨2, ![8192, 128]⟩
abbrev S_ : Shape := ⟨0, ![]⟩
abbrev S128x8192 : Shape := ⟨2, ![128, 8192]⟩
abbrev S4096x8192 : Shape := ⟨2, ![4096, 8192]⟩
abbrev S8192 : Shape := ⟨1, ![8192]⟩
abbrev S1x8192 : Shape := ⟨2, ![1, 8192]⟩

abbrev nBuf : Space → Nat
  | .hbm => 42
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S_, .f32⟩
  | .hbm, ⟨5, _⟩ => ⟨S8192x128, .f32⟩
  | .hbm, ⟨6, _⟩ => ⟨S8192x128, .f32⟩
  | .hbm, ⟨7, _⟩ => ⟨S_, .f32⟩
  | .hbm, ⟨8, _⟩ => ⟨S8192x128, .f32⟩
  | .hbm, ⟨9, _⟩ => ⟨S8192x128, .f32⟩
  | .hbm, ⟨10, _⟩ => ⟨S4096x128, .f32⟩
  | .hbm, ⟨11, _⟩ => ⟨S128x8192, .f32⟩
  | .hbm, ⟨12, _⟩ => ⟨S4096x8192, .f32⟩
  | .hbm, ⟨13, _⟩ => ⟨S8192x128, .f32⟩
  | .hbm, ⟨14, _⟩ => ⟨S128x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S8192x128, .f32⟩
  | .hbm, ⟨21, _⟩ => ⟨S8192x128, .f32⟩
  | .hbm, ⟨22, _⟩ => ⟨S_, .f32⟩
  | .hbm, ⟨23, _⟩ => ⟨S8192, .f32⟩
  | .hbm, ⟨24, _⟩ => ⟨S1x8192, .f32⟩
  | .hbm, ⟨25, _⟩ => ⟨S4096x8192, .f32⟩
  | .hbm, ⟨26, _⟩ => ⟨S4096x8192, .f32⟩
  | .hbm, ⟨27, _⟩ => ⟨S8192x128, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S1x8192, .f32⟩
  | .hbm, ⟨37, _⟩ => ⟨S4096x8192, .f32⟩
  | .hbm, ⟨38, _⟩ => ⟨S4096x8192, .f32⟩
  | .hbm, ⟨39, _⟩ => ⟨S_, .f32⟩
  | .hbm, ⟨40, _⟩ => ⟨S4096x8192, .f32⟩
  | .hbm, ⟨41, _⟩ => ⟨S4096x8192, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  bcast_S_S8192x128 : S_.BroadcastsInDim S8192x128 (![] : Fin 0 → Fin S8192x128.rank)
  transposes_S8192x128_S128x8192_1_0 : S8192x128.Transposes [1, 0] S128x8192
  bcast_S_S4096x8192 : S_.BroadcastsInDim S4096x8192 (![] : Fin 0 → Fin S4096x8192.rank)
  reducesTo_S8192x128_S8192_d1 : S8192x128.ReducesTo [1] S8192
  h_S_ : 0 < S_.numel
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  bcast_S_S8192 : S_.BroadcastsInDim S8192 (![] : Fin 0 → Fin S8192.rank)
  dot_S4096x128_S128x8192_S4096x8192_1_0_0_1_n_n_wf : DotDims.WF S4096x128 S128x8192 S4096x8192 [1] [0] [0] [1] [] []

variable [Facts₀]

def dot_S4096x128_S128x8192_S4096x8192_1_0_0_1_n_n : DotDims S4096x128 S128x8192 S4096x8192 where
  lhsContracting := [1]
  rhsContracting := [0]
  lhsNonContracting := [0]
  rhsNonContracting := [1]
  lhsBatch := []
  rhsBatch := []
  wf := dot_S4096x128_S128x8192_S4096x8192_1_0_0_1_n_n_wf

class Facts : Prop extends Facts₀ where

variable [Facts]
-- ==== Proof.Prefix.lean ====
/-
  What the kernel's host operations leave in the three arrays the call reads, before the call.

  From the arguments `x` (batch rows), `μ` (codebook means) and `σ²` (codebook variances) the host part forms the floored
  variance `max(floor, σ²)`, the precision `1 / that`, and then
    * the left operand `[x·x, (−2)·x]`, two blocks of 128 coordinates side by side (256 columns);
    * the right operand `[p, μ·p]`, likewise;
    * the bias row `½ · (Σ μ (μ p) + (Σ log max(floor, σ²) + Σ p − 128))`, one entry per codebook row, as a [1, 8192] array.
  Here the three are named as pure terms of the argument arrays; the next module reads them at an index.
-/
import proofs.«181327_j66434554134953_2_alg».proof.Proof.Gen.KernelIdeal.Frame
import Idealize.ShloMosaic.Lib.StableHlo.Run
import Idealize.ShloMosaic.PureOps.Ideal

noncomputable section

namespace Cert.KL.Prefix

open Cert.KernelIdeal Cert.KernelIdeal.Gen Idealize.ShloMosaic Idealize.ShloMosaic.TcCoe Idealize.SL.Sem
open Idealize.ShloMosaic.StableHlo

/-- `max(floor, σ²)`, entry by entry. -/
def flooredVar (D : FVec Ideal S8192x128 .f32) : FVec Ideal S8192x128 .f32 :=
  maximumf (broadcastInDim S8192x128 ![] Facts₀.bcast_S_S8192x128 (id (constant (F := Ideal) S_ .f32 0x358637BD#32))) D

/-- The precision `1 / max(floor, σ²)`. -/
def prec (D : FVec Ideal S8192x128 .f32) : FVec Ideal S8192x128 .f32 :=
  Host.divf (broadcastInDim S8192x128 ![] Facts₀.bcast_S_S8192x128 (constant (F := Ideal) S_ .f32 0x3F800000#32)) (flooredVar D)

/-- The left operand `[x·x, (−2)·x]`. -/
def lhsArr (X : FVec Ideal S4096x128 .f32) : FVec Ideal S4096x256 .f32 :=
  concatenate S4096x256 1
    [⟨S4096x128, mulf X X⟩,
     ⟨S4096x128, mulf (broadcastInDim S4096x128 ![] Facts₀.bcast_S_S4096x128 (constant (F := Ideal) S_ .f32 0xC0000000#32)) X⟩]
    Facts₀.concatenates_S4096x128_S4096x128_S4096x256_d1

/-- The right operand `[p, μ·p]`. -/
def rhsArr (M D : FVec Ideal S8192x128 .f32) : FVec Ideal S8192x256 .f32 :=
  concatenate S8192x256 1 [⟨S8192x128, prec D⟩, ⟨S8192x128, mulf M (prec D)⟩]
    Facts₀.concatenates_S8192x128_S8192x128_S8192x256_d1

/-- The bias before it is laid out as a row: one entry per codebook row. -/
def biasVec (M D : FVec Ideal S8192x128 .f32) : FVec Ideal S8192 .f32 :=
  mulf (broadcastInDim S8192 ![] Facts₀.bcast_S_S8192 (constant (F := Ideal) S_ .f32 0x3F000000#32))
    (addf (Host.reduceAdd (mulf M (mulf M (prec D))) (constant (F := Ideal) S_ .f32 0x00000000#32) Facts₀.reducesTo_S8192x128_S8192_d1 Facts₀.h_S_)
      (subf (addf (Host.reduceAdd (Host.log (flooredVar D)) (constant (F := Ideal) S_ .f32 0x00000000#32) Facts₀.reducesTo_S8192x128_S8192_d1 Facts₀.h_S_)
                  (Host.reduceAdd (prec D) (constant (F := Ideal) S_ .f32 0x00000000#32) Facts₀.reducesTo_S8192x128_S8192_d1 Facts₀.h_S_))
            (broadcastInDim S8192 ![] Facts₀.bcast_S_S8192 (constant (F := Ideal) S_ .f32 0x43000000#32))))

/-- The bias as the [1, 8192] row the call reads. -/
def biasArr (M D : FVec Ideal S8192x128 .f32) : FVec Ideal S1x8192 .f32 :=
  shapeCast S1x8192 (biasVec M D) Facts₀.shapeCasts_S8192_S1x8192

variable (m : (ℓ : Loc nD τ sig) → Buf (Elt Ideal) ℓ)

set_option maxHeartbeats 1000000 in
/-- The left operand as the call finds it. -/
theorem V_lhs (c : Dev nD) :
    (V m c main_v19 : S4096x256.Idx → EReal) = lhsArr (m ((c : Thread nD τ).loc main_arg0)) := by
  dsimp only [Gen.V]
  simp only [Gen.hostOps0, Gen.hostOps0_1, Gen.hostOps0_2, List.flatten_cons, List.flatten_nil, List.append_nil,
    List.cons_append, List.nil_append]
  after_results_simp <;> rfl

set_option maxHeartbeats 1000000 in
/-- The right operand as the call finds it. -/
theorem V_rhs (c : Dev nD) :
    (V m c main_v20 : S8192x256.Idx → EReal)
      = rhsArr (m ((c : Thread nD τ).loc main_arg1)) (m ((c : Thread nD τ).loc main_arg2)) := by
  dsimp only [Gen.V]
  simp only [Gen.hostOps0, Gen.hostOps0_1, Gen.hostOps0_2, List.flatten_cons, List.flatten_nil, List.append_nil,
    List.cons_append, List.nil_append]
  after_results_simp <;> rfl

set_option maxHeartbeats 1000000 in
/-- The bias row as the call finds it. -/
theorem V_bias (c : Dev nD) :
    (V m c main_v15 : S1x8192.Idx → EReal)
      = biasArr (m ((c : Thread nD τ).loc main_arg1)) (m ((c : Thread nD τ).loc main_arg2)) := by
  dsimp only [Gen.V]
  simp only [Gen.hostOps0, Gen.hostOps0_1, Gen.hostOps0_2, List.flatten_cons, List.flatten_nil, List.append_nil,
    List.cons_append, List.nil_append]
  after_results_simp <;> rfl

end Cert.KL.Prefix

end
-- ==== Proof.Literals.lean ====
/-
  The float words both programs spell, as the extended reals they denote at the ideal values.

  Every one is a finite real. Only three facts about their values are used later: the variance floor is
  positive, the word `-2.0` is the negative of the word `2.0`, and `+0.0` is zero. The others (`1.0`, `0.5`,
  `128.0`) enter the two programs in the same places and only need to be real numbers.
-/
import Idealize.ShloMosaic.PureOps.Ideal
import Idealize.ShloMosaic.PureOps.Ideal.Laws

noncomputable section

namespace Cert.KL.Literals

open Idealize.ShloMosaic

/-- The floor under the variances, the f32 nearest to `1e-6`: the dyadic `8796093 / 2^43`. -/
def floorR : ℝ := 8796093 / 2 ^ 43

theorem floorR_pos : 0 < floorR := by unfold floorR; positivity

theorem ofBits_floor : Ideal.ofBits .f32 0x358637BD#32 = ((floorR : ℝ) : EReal) := by
  unfold floorR
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_neg_two : Ideal.ofBits .f32 0xC0000000#32 = ((-2 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_dim : Ideal.ofBits .f32 0x43000000#32 = ((128 : ℝ) : EReal) := by
  simp [Ideal.ofBits, Ideal.ieee, -EReal.coe_mul]; norm_num

theorem ofBits_zero : Ideal.ofBits .f32 0x00000000#32 = ((0 : ℝ) : EReal) := by
  rw [Ideal.ofBits_zero_f32]; rfl

end Cert.KL.Literals

end
-- ==== Proof.Energy.lean ====
/-
  The quantity both programs compute, and the law that joins their two arrangements of it.

  For a batch row `x_b`, a codebook row with mean `μ_i` and diagonal variance `σ²_i` (floored at the literal
  `1e-6`), write `p_ik = 1 / max(floor, σ²_ik)` for the precision. The energy is

      E(b, i) = ½ · ( Σ_k x_bk² p_ik  −  2 Σ_k x_bk (μ_ik p_ik)  +  Σ_k μ_ik² p_ik  +  c_i ),
      c_i     = Σ_k log max(floor, σ²_ik)  +  Σ_k p_ik  −  128.

  `energy` is that expression in the order above (three separate sums over the 128 coordinates). `fusedEnergy`
  is the other arrangement: one sum over 256 coordinates of the row `[x², −2x]` against the row `[p, μ p]`, halved,
  plus a per-codebook bias `½ · (Σ_k μ_ik (μ_ik p_ik) + c_i)`.

  On the extended reals the two differ by distributing `½` over a sum and by moving the factor `−2` out of a sum:
  both steps can fail at infinities, and both hold when every entry of `x`, `μ`, `σ²` is a real number, because then
  the floored variance is a positive real, so the precision and the logarithm are real, and the identity is one of
  real arithmetic (`fusedEnergy_eq_energy`).
-/
import Idealize.ShloMosaic.PureOps.Ideal
import Idealize.ShloMosaic.Lib.ValueIdx
import proofs.«181327_j66434554134953_2_alg».proof.Proof.Literals

noncomputable section

namespace Cert.KL

open Idealize.ShloMosaic Idealize.ShloMosaic.ValueIdx

/-- Batch rows × coordinates. -/
abbrev SBatch : Shape := ⟨2, ![4096, 128]⟩
/-- Codebook rows × coordinates. -/
abbrev SCode : Shape := ⟨2, ![8192, 128]⟩

/-! ## The pieces -/

/-- The variance of codebook row `i` at coordinate `k`, floored. -/
def variance (diag : SCode.Idx → EReal) (i : Fin 8192) (k : Fin 128) : EReal :=
  max (Ideal.ofBits .f32 0x358637BD#32) (diag (ix2 i k))

/-- Its reciprocal. -/
def precision (diag : SCode.Idx → EReal) (i : Fin 8192) (k : Fin 128) : EReal :=
  Ideal.div (Ideal.ofBits .f32 0x3F800000#32) (variance diag i k)

/-- The per-codebook constant `c_i`: log-determinant plus trace of the precision, less the dimension. -/
def offset (diag : SCode.Idx → EReal) (i : Fin 8192) : EReal :=
  ((Ideal.ofBits .f32 0x00000000#32 + ∑ k : Fin 128, Ideal.log (variance diag i k))
    + (Ideal.ofBits .f32 0x00000000#32 + ∑ k : Fin 128, precision diag i k))
  - Ideal.ofBits .f32 0x43000000#32

/-- The energy, as three sums over the coordinates. -/
def energy (x : SBatch.Idx → EReal) (mean diag : SCode.Idx → EReal) (b : Fin 4096) (i : Fin 8192) : EReal :=
  Ideal.ofBits .f32 0x3F000000#32 *
    ((((∑ k : Fin 128, (x (ix2 b k) * x (ix2 b k)) * precision diag i k)
        - Ideal.ofBits .f32 0x40000000#32 * ∑ k : Fin 128, x (ix2 b k) * (mean (ix2 i k) * precision diag i k))
      + (Ideal.ofBits .f32 0x00000000#32 + ∑ k : Fin 128, (mean (ix2 i k) * mean (ix2 i k)) * precision diag i k))
     + offset diag i)

/-- Row `b` of `[x², −2x]`: 256 entries. -/
def lhsRow (x : SBatch.Idx → EReal) (b : Fin 4096) (k : Fin 256) : EReal :=
  if h : k.val < 128 then x (ix2 b ⟨k.val, h⟩) * x (ix2 b ⟨k.val, h⟩)
  else Ideal.ofBits .f32 0xC0000000#32 * x (ix2 b ⟨k.val - 128, by have := k.isLt; omega⟩)

/-- Row `i` of `[p, μ p]`: 256 entries. -/
def rhsRow (mean diag : SCode.Idx → EReal) (i : Fin 8192) (k : Fin 256) : EReal :=
  if h : k.val < 128 then precision diag i ⟨k.val, h⟩
  else mean (ix2 i ⟨k.val - 128, by have := k.isLt; omega⟩) * precision diag i ⟨k.val - 128, by have := k.isLt; omega⟩

/-- The per-codebook bias `½ · (Σ_k μ (μ p) + c_i)`. -/
def bias (mean diag : SCode.Idx → EReal) (i : Fin 8192) : EReal :=
  Ideal.ofBits .f32 0x3F000000#32 *
    ((Ideal.ofBits .f32 0x00000000#32 + ∑ k : Fin 128, mean (ix2 i k) * (mean (ix2 i k) * precision diag i k))
      + offset diag i)

/-- The energy, as one 256-term product sum, halved, plus the bias. -/
def fusedEnergy (x : SBatch.Idx → EReal) (mean diag : SCode.Idx → EReal) (b : Fin 4096) (i : Fin 8192) : EReal :=
  Ideal.ofBits .f32 0x3F000000#32 * (∑ k : Fin 256, lhsRow x b k * rhsRow mean diag i k) + bias mean diag i

/-! ## The two halves of a 256-term sum -/

theorem lhsRow_low (x : SBatch.Idx → EReal) (b : Fin 4096) (k : Fin 128) :
    lhsRow x b ⟨k.val, by have := k.isLt; omega⟩ = x (ix2 b k) * x (ix2 b k) := by
  unfold lhsRow; rw [dif_pos (show (⟨k.val, _⟩ : Fin 256).val < 128 from k.isLt)]

theorem lhsRow_high (x : SBatch.Idx → EReal) (b : Fin 4096) (k : Fin 128) :
    lhsRow x b ⟨128 + k.val, by have := k.isLt; omega⟩ = Ideal.ofBits .f32 0xC0000000#32 * x (ix2 b k) := by
  unfold lhsRow
  rw [dif_neg (show ¬ (⟨128 + k.val, _⟩ : Fin 256).val < 128 from by simp)]
  have e : (⟨(⟨128 + k.val, by have := k.isLt; omega⟩ : Fin 256).val - 128, by have := k.isLt; simp⟩ : Fin 128) = k :=
    Fin.ext (by simp)
  rw [e]

theorem rhsRow_low (mean diag : SCode.Idx → EReal) (i : Fin 8192) (k : Fin 128) :
    rhsRow mean diag i ⟨k.val, by have := k.isLt; omega⟩ = precision diag i k := by
  unfold rhsRow; rw [dif_pos (show (⟨k.val, _⟩ : Fin 256).val < 128 from k.isLt)]

theorem rhsRow_high (mean diag : SCode.Idx → EReal) (i : Fin 8192) (k : Fin 128) :
    rhsRow mean diag i ⟨128 + k.val, by have := k.isLt; omega⟩ = mean (ix2 i k) * precision diag i k := by
  unfold rhsRow
  rw [dif_neg (show ¬ (⟨128 + k.val, _⟩ : Fin 256).val < 128 from by simp)]
  have e : (⟨(⟨128 + k.val, by have := k.isLt; omega⟩ : Fin 256).val - 128, by have := k.isLt; simp⟩ : Fin 128) = k :=
    Fin.ext (by simp)
  rw [e]

/-- A sum over 256 positions is the sum over the first 128 plus the sum over the last 128. -/
theorem sum_halves (f : Fin 256 → EReal) :
    ∑ k : Fin 256, f k
      = (∑ k : Fin 128, f ⟨k.val, by have := k.isLt; omega⟩) + ∑ k : Fin 128, f ⟨128 + k.val, by have := k.isLt; omega⟩ :=
  Fin.sum_univ_add (a := 128) (b := 128) f

/-! ## Real entries give real pieces -/

/-- The coercion of a finite real sum is the sum of the coercions. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The floored variance of a real entry, as a real. -/
def varR (d : SCode.Idx → ℝ) (i : Fin 8192) (k : Fin 128) : ℝ := max Literals.floorR (d (ix2 i k))

theorem varR_pos (d : SCode.Idx → ℝ) (i : Fin 8192) (k : Fin 128) : 0 < varR d i k :=
  lt_of_lt_of_le Literals.floorR_pos (le_max_left _ _)

theorem variance_coe (d : SCode.Idx → ℝ) (i : Fin 8192) (k : Fin 128) :
    variance (fun j => (d j : EReal)) i k = ((varR d i k : ℝ) : EReal) := by
  unfold variance varR
  rw [Literals.ofBits_floor]
  exact (EReal.coe_strictMono.monotone.map_max).symm

theorem precision_coe (d : SCode.Idx → ℝ) (i : Fin 8192) (k : Fin 128) :
    precision (fun j => (d j : EReal)) i k = ((1 * (1 / varR d i k) : ℝ) : EReal) := by
  unfold precision
  rw [variance_coe, Ideal.div_coe (ne_of_gt (varR_pos d i k)), Literals.ofBits_one, ← EReal.coe_mul]

theorem log_variance_coe (d : SCode.Idx → ℝ) (i : Fin 8192) (k : Fin 128) :
    Ideal.log (variance (fun j => (d j : EReal)) i k) = ((Real.log (varR d i k) : ℝ) : EReal) := by
  rw [variance_coe, Ideal.log_coe, if_neg (not_le.2 (varR_pos d i k))]

/-! ## The law -/

/-- With every entry a real number, the fused arrangement is the energy. -/
theorem fusedEnergy_eq_energy (x : SBatch.Idx → EReal) (mean diag : SCode.Idx → EReal)
    (hx : ∀ j, ∃ r : ℝ, x j = (r : EReal)) (hm : ∀ j, ∃ r : ℝ, mean j = (r : EReal))
    (hd : ∀ j, ∃ r : ℝ, diag j = (r : EReal)) (b : Fin 4096) (i : Fin 8192) :
    fusedEnergy x mean diag b i = energy x mean diag b i := by
  choose xr hxr using hx
  choose mr hmr using hm
  choose dr hdr using hd
  obtain rfl : x = fun j => (xr j : EReal) := funext hxr
  obtain rfl : mean = fun j => (mr j : EReal) := funext hmr
  obtain rfl : diag = fun j => (dr j : EReal) := funext hdr
  unfold fusedEnergy energy bias offset
  rw [sum_halves]
  simp only [lhsRow_low, lhsRow_high, rhsRow_low, rhsRow_high, precision_coe, log_variance_coe,
    Literals.ofBits_half, Literals.ofBits_two, Literals.ofBits_neg_two, Literals.ofBits_zero, Literals.ofBits_dim,
    ← EReal.coe_mul, ← coe_sum, ← EReal.coe_add, ← EReal.coe_sub]
  refine congrArg (fun r : ℝ => (r : EReal)) ?_
  have e1 : ∑ k : Fin 128, -2 * xr (ix2 b k) * (mr (ix2 i k) * (1 * (1 / varR dr i k)))
      = -2 * ∑ k : Fin 128, xr (ix2 b k) * (mr (ix2 i k) * (1 * (1 / varR dr i k))) := by
    rw [Finset.mul_sum]; exact Finset.sum_congr rfl fun k _ => by ring
  have e2 : ∑ k : Fin 128, mr (ix2 i k) * (mr (ix2 i k) * (1 * (1 / varR dr i k)))
      = ∑ k : Fin 128, mr (ix2 i k) * mr (ix2 i k) * (1 * (1 / varR dr i k)) :=
    Finset.sum_congr rfl fun k _ => by ring
  rw [e1, e2]
  ring

end Cert.KL

end
-- ==== Proof.PrefixAt.lean ====
/-
  The three arrays the call reads, entry by entry.

  Row `b` of the left operand is `[x_b², −2 x_b]` (`lhsRow`), row `i` of the right operand is `[p_i, μ_i p_i]` (`rhsRow`),
  and entry `i` of the bias row is `½ · (Σ_k μ_ik (μ_ik p_ik) + c_i)` (`bias`): a side-by-side concatenation read in its
  first or second half, a sum along a row read as a sum over the 128 coordinates, a scalar constant spread over an
  array read as the constant, and a vector laid out as a one-row matrix read at its column.
-/
import proofs.«181327_j66434554134953_2_alg».proof.Proof.Prefix
import proofs.«181327_j66434554134953_2_alg».proof.Proof.Energy
import Idealize.ShloMosaic.Lib.Pipeline.Value
import Idealize.ShloMosaic.Lib.ValueIdx
import Idealize.ShloMosaic.Lib.ValueLayout
import Idealize.ShloMosaic.PureOps.Ideal.Laws

noncomputable section

namespace Cert.KL.Prefix

open Cert.KernelIdeal Idealize.ShloMosaic Idealize.ShloMosaic.ValueIdx

/-- A scalar spread over an array reads as the scalar, at every index. -/
theorem spread_apply {t : Shape} (h : S_.BroadcastsInDim t (![] : Fin 0 → Fin t.rank)) (y : S_.Idx → EReal) (j : t.Idx) :
    broadcastInDim t ![] h y j = y ix0 :=
  broadcastInDim_apply _ h y j ix0 (fun a => a.elim0)

/-- The host's sum along each row of an [8192, 128] array, at row `i`: the initial value plus the 128 entries of the row. -/
theorem rowSum_apply (h' : S8192x128.ReducesTo [1] S8192) (h0 : 0 < S_.numel) (y : FVec Ideal S8192x128 .f32)
    (init : FVec Ideal S_ .f32) (i : Fin 8192) :
    Host.reduceAdd y init h' h0 (ix1 i) = init (Shape.Idx.first h0) + ∑ k : Fin 128, y (ix2 i k) := by
  simp only [Host.reduceAdd, Ideal.hostReduceAdd_def]
  rw [Ideal.hostReduceAdd_single h' (by decide)]
  refine congrArg (_ + ·) (Finset.sum_congr rfl fun k _ => ?_)
  exact congrArg y (funext fun a => Fin.ext (by match a with | ⟨0, _⟩ => rfl | ⟨1, _⟩ => rfl))

theorem flooredVar_apply (D : FVec Ideal S8192x128 .f32) (i : Fin 8192) (k : Fin 128) :
    flooredVar D (ix2 i k) = variance D i k := by
  unfold flooredVar variance
  show max (broadcastInDim (s := S_) S8192x128 ![] Facts₀.bcast_S_S8192x128 _ (ix2 i k)) (D (ix2 i k)) = _
  rw [spread_apply]
  rfl

theorem prec_apply (D : FVec Ideal S8192x128 .f32) (i : Fin 8192) (k : Fin 128) :
    prec D (ix2 i k) = precision D i k := by
  unfold prec precision
  show Ideal.div (broadcastInDim (s := S_) S8192x128 ![] Facts₀.bcast_S_S8192x128 _ (ix2 i k)) (flooredVar D (ix2 i k)) = _
  rw [spread_apply, flooredVar_apply]
  rfl

/-- The left operand at row `b`, column `k` of 256. -/
theorem lhsArr_apply (X : FVec Ideal S4096x128 .f32) (b : Fin 4096) (k : Fin 256) :
    lhsArr X (ix2 b k) = lhsRow X b k := by
  unfold lhsArr lhsRow
  by_cases h : k.val < 128
  · rw [dif_pos h]
    exact concatenate_pair_apply_left (s₁ := S4096x128) (s₂ := S4096x128) (1 : Fin 2) _ _ _ (ix2 b k) rfl (ix2 b ⟨k.val, h⟩)
      (fun a => match a with | ⟨0, _⟩ => rfl | ⟨1, _⟩ => rfl)
  · rw [dif_neg h]
    have hk : k.val - 128 < 128 := by have := k.isLt; omega
    refine (concatenate_pair_apply_right (s₁ := S4096x128) (s₂ := S4096x128) (1 : Fin 2) _ _ _ (ix2 b k) rfl rfl (ix2 b ⟨k.val - 128, hk⟩)
      (fun a => match a with | ⟨0, _⟩ => fun _ => rfl | ⟨1, _⟩ => fun hne => absurd rfl hne)
      (by show k.val - 128 + 128 = k.val; omega)).trans ?_
    show broadcastInDim (s := S_) S4096x128 ![] Facts₀.bcast_S_S4096x128 _ (ix2 b ⟨k.val - 128, hk⟩) * X (ix2 b ⟨k.val - 128, hk⟩) = _
    rw [spread_apply]
    rfl

/-- The right operand at row `i`, column `k` of 256. -/
theorem rhsArr_apply (M D : FVec Ideal S8192x128 .f32) (i : Fin 8192) (k : Fin 256) :
    rhsArr M D (ix2 i k) = rhsRow M D i k := by
  unfold rhsArr rhsRow
  by_cases h : k.val < 128
  · rw [dif_pos h]
    exact (concatenate_pair_apply_left (s₁ := S8192x128) (s₂ := S8192x128) (1 : Fin 2) _ _ _ (ix2 i k) rfl (ix2 i ⟨k.val, h⟩)
      (fun a => match a with | ⟨0, _⟩ => rfl | ⟨1, _⟩ => rfl)).trans (prec_apply D i ⟨k.val, h⟩)
  · rw [dif_neg h]
    have hk : k.val - 128 < 128 := by have := k.isLt; omega
    refine (concatenate_pair_apply_right (s₁ := S8192x128) (s₂ := S8192x128) (1 : Fin 2) _ _ _ (ix2 i k) rfl rfl (ix2 i ⟨k.val - 128, hk⟩)
      (fun a => match a with | ⟨0, _⟩ => fun _ => rfl | ⟨1, _⟩ => fun hne => absurd rfl hne)
      (by show k.val - 128 + 128 = k.val; omega)).trans ?_
    show M (ix2 i ⟨k.val - 128, hk⟩) * prec D (ix2 i ⟨k.val - 128, hk⟩) = _
    rw [prec_apply]

/-- The bias vector at codebook row `i`. -/
theorem biasVec_apply (M D : FVec Ideal S8192x128 .f32) (i : Fin 8192) :
    biasVec M D (ix1 i) = bias M D i := by
  unfold biasVec bias offset
  show broadcastInDim (s := S_) S8192 ![] Facts₀.bcast_S_S8192 _ (ix1 i) *
      (Host.reduceAdd _ _ _ _ (ix1 i)
        + ((Host.reduceAdd _ _ _ _ (ix1 i) + Host.reduceAdd _ _ _ _ (ix1 i)) - broadcastInDim (s := S_) S8192 ![] Facts₀.bcast_S_S8192 _ (ix1 i))) = _
  rw [rowSum_apply, rowSum_apply, rowSum_apply, spread_apply, spread_apply]
  have e1 : ∀ k : Fin 128, (mulf M (mulf M (prec D)) : FVec Ideal S8192x128 .f32) (ix2 i k)
      = M (ix2 i k) * (M (ix2 i k) * precision D i k) := fun k => by
    show M (ix2 i k) * (M (ix2 i k) * prec D (ix2 i k)) = _
    rw [prec_apply]
  have e2 : ∀ k : Fin 128, (Host.log (flooredVar D) : FVec Ideal S8192x128 .f32) (ix2 i k) = Ideal.log (variance D i k) := fun k => by
    show Ideal.log (flooredVar D (ix2 i k)) = _
    rw [flooredVar_apply]
  simp only [e1, e2, prec_apply]
  rfl

/-- The bias row at column `i`. -/
theorem biasArr_apply (M D : FVec Ideal S8192x128 .f32) (i : Fin 8192) :
    biasArr M D (ix2 (0 : Fin 1) i) = bias M D i := by
  unfold biasArr
  rw [shapeCast_a_1a_apply]
  exact biasVec_apply M D i

end Cert.KL.Prefix

end
-- ==== Proof.Payload.lean ====
/-
  The kernel body's one store, entry by entry.

  At a grid point the body loads a [1024, 256] block `a` of the left operand, a [4096, 256] block `w` of the right operand
  and a [1, 4096] block `β` of the bias row, and stores the [1024, 4096] block whose entry `(p, q)` is

      ½ · Σ_{k < 256} a(p, k) · w(q, k)  +  β(0, q):

  the matrix product contracts the second axis of both operands (its accumulator is zero), the scalar `½` is spread
  over the block, and the one-row bias is repeated down the 1024 rows.
-/
import proofs.«181327_j66434554134953_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.KL.Payload

open Cert.KernelIdeal Cert.KernelIdeal.Gen Idealize.ShloMosaic Idealize.ShloMosaic.ValueIdx

/-- The product's dimension record: both operands contract their axis 1, rows come from axis 0 of each. -/
local notation "dd" => dot_S1024x256_S4096x256_S1024x4096_1_1_0_0_n_n

theorem lhs_row (j : S1024x4096.Idx) (q : (dd).contr.Idx) : ((dd).lhsIdx j q 0).val = (j 0).val := by
  unfold DotDims.lhsIdx
  rw [dif_neg (show ¬(0 : Fin S1024x256.rank) ∈ (dd).lhsBatch by decide),
    dif_pos (show (0 : Fin S1024x256.rank) ∈ (dd).lhsNonContracting by decide)]
  rfl

theorem lhs_col (j : S1024x4096.Idx) (q : (dd).contr.Idx) : ((dd).lhsIdx j q 1).val = (q ⟨0, by decide⟩).val :=
  (dd).lhsIdx_val_of_single rfl j q

theorem rhs_row (j : S1024x4096.Idx) (q : (dd).contr.Idx) : ((dd).rhsIdx j q 0).val = (j 1).val := by
  unfold DotDims.rhsIdx
  rw [dif_neg (show ¬(0 : Fin S4096x256.rank) ∈ (dd).rhsBatch by decide),
    dif_pos (show (0 : Fin S4096x256.rank) ∈ (dd).rhsNonContracting by decide)]
  rfl

theorem rhs_col (j : S1024x4096.Idx) (q : (dd).contr.Idx) : ((dd).rhsIdx j q 1).val = (q ⟨0, by decide⟩).val :=
  (dd).rhsIdx_val_of_single rfl j q

/-- The product into a zero accumulator, at `(p, q)`: the sum over the 256 contracted positions. -/
theorem product_apply (a : FVec Ideal S1024x256 .f32) (w : FVec Ideal S4096x256 .f32) (p : Fin 1024) (q : Fin 4096) :
    matmul (dd) (some .fp32) a w (constant (F := Ideal) S1024x4096 .f32 0x00000000#32) (ix2 p q)
      = ∑ k : Fin 256, a (ix2 p k) * w (ix2 q k) := by
  simp only [matmul]
  rw [Ideal.matmul_constant_zero_apply, ← Equiv.sum_comp (ValueIdx.contrEquiv1 (dd) 256 rfl rfl).symm]
  refine Finset.sum_congr rfl fun k _ => ?_
  have hk := ValueIdx.contrEquiv1_symm_val (dd) 256 rfl rfl k
  have el : (dd).lhsIdx (ix2 p q) ((ValueIdx.contrEquiv1 (dd) 256 rfl rfl).symm k) = ix2 p k := funext fun ax => Fin.ext (by
    match ax with
    | ⟨0, _⟩ => exact lhs_row _ _
    | ⟨1, _⟩ => exact (lhs_col _ _).trans hk)
  have er : (dd).rhsIdx (ix2 p q) ((ValueIdx.contrEquiv1 (dd) 256 rfl rfl).symm k) = ix2 q k := funext fun ax => Fin.ext (by
    match ax with
    | ⟨0, _⟩ => exact rhs_row _ _
    | ⟨1, _⟩ => exact (rhs_col _ _).trans hk)
  rw [el, er]

/-- The stored block at `(p, q)`. -/
theorem payload_apply (a : Vec Ideal S1024x256 .f32) (w : Vec Ideal S4096x256 .f32) (β : Vec Ideal S1x4096 .f32)
    (p : Fin 1024) (q : Fin 4096) :
    k0_pay1 (F := Ideal) a w β (ix2 p q)
      = Ideal.ofBits .f32 0x3F000000#32 * (∑ k : Fin 256, a (ix2 p k) * w (ix2 q k)) + β (ix2 (0 : Fin 1) q) := by
  unfold k0_pay1
  rw [shapeCast_self, shapeCast_self, shapeCast_self]
  show Ideal.ofBits .f32 0x3F000000#32 * matmul (dd) (some .fp32) a w (constant (F := Ideal) S1024x4096 .f32 0x00000000#32) (ix2 p q)
      + broadcastTo S1024x4096 β Facts₀.broadcasts_S1x4096_S1024x4096 (ix2 p q) = _
  rw [product_apply, broadcastTo_1b_ab_apply]

end Cert.KL.Payload

end
-- ==== Proof.Blocks.lean ====
/-
  From the blocks the grid points write to the whole output array.

  The grid has 2 × 4 points `(j, i)`: point `(j, i)` reads rows `1024 i …` of the left operand, rows `4096 j …` of the right
  operand and columns `4096 j …` of the bias row, and writes the [1024, 4096] block of the output at block row `i`, block
  column `j`. So the block entry `(p, q)` at that point is the output entry `(r, s) = (1024 i + p, 4096 j + q)`, and by the
  stored block's formula it is `½ · Σ_{k<256} lhs(r, k) · rhs(s, k) + bias(s)` — the fused arrangement of the energy at
  `(r, s)`. The eight blocks tile the [4096, 8192] output (entry `(r, s)` lies in the block of the point with `i = r / 1024`,
  `j = s / 4096`), so after the run the output array is the fused energy everywhere.
-/
import proofs.«181327_j66434554134953_2_alg».proof.Proof.Gen.KernelIdeal.Value
import proofs.«181327_j66434554134953_2_alg».proof.Proof.PrefixAt
import proofs.«181327_j66434554134953_2_alg».proof.Proof.Payload

noncomputable section

namespace Cert.KL.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- What the output array ends holding: the fused energy of the argument arrays, entry by entry. -/
def target (c : Dev nD) : S4096x8192.Idx → EReal := fun j =>
  fusedEnergy (m ((c : Thread nD τ).loc main_arg0)) (m ((c : Thread nD τ).loc main_arg1)) (m ((c : Thread nD τ).loc main_arg2))
    (j 0) (j 1)

theorem zero_offsets : (![0, 0] : Fin 2 → Nat) = fun _ => 0 := funext fun a => by fin_cases a <;> rfl

/-- How the four windows' block indices move over the grid, decided over its eight points: the left operand's block row
    is the output's block row, the right operand's block row and the bias's block column are the output's block column,
    and the remaining block indices are zero. -/
theorem index_maps : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2) :=
  (by decide +kernel : ∀ t : Fin grid0.N, _)

/-- Every block position of the 4 × 2 tiling is some point's. -/
theorem index_onto : ∀ (q0 : Fin 4) (q1 : Fin 2), ∃ t : Fin cfg0.N, win0_3.index t = ![q0.val, q1.val] :=
  (by decide +kernel : ∀ (q0 : Fin 4) (q1 : Fin 2), ∃ t : Fin grid0.N, win0_3.index t = ![q0.val, q1.val])

/-! ## The input blocks at a point, entry by entry -/

/-- The left operand's block at point `t`, entry `(p, k)`: row `r` of `[x², −2x]`, where `r` is the output row of block row `p`. -/
theorem lhs_block (c : Dev nD) (t : Fin cfg0.N) (p : Fin 1024) (k : Fin 256) (r : Fin 4096)
    (hr : r.val = win0_3.index t (0 : Fin 2) * 1024 + 1 * p.val) :
    iblk m c 0 t (ix2 p k) = lhsRow (m ((c : Thread nD τ).loc main_arg0)) r k := by
  obtain ⟨e0, e1, -, -, -, -⟩ := index_maps t
  have e : ((cfg0.win 0).blk t).view.emb (ix2 p k) = ix2 r k := funext fun a => Fin.ext (by
    match a with
    | ⟨0, _⟩ => show win0_0.index t (0 : Fin 2) * 1024 + 1 * p.val = r.val; omega
    | ⟨1, _⟩ => show win0_0.index t (1 : Fin 2) * 256 + 1 * k.val = k.val; omega)
  show V m c main_v19 (((cfg0.win 0).blk t).view.emb (ix2 p k)) = _
  exact (congrArg (V m c main_v19) e).trans
    ((congrFun (Prefix.V_lhs m c) (ix2 r k)).trans (Prefix.lhsArr_apply _ r k))

/-- The right operand's block at point `t`, entry `(q, k)`: row `s` of `[p, μ p]`, where `s` is the output column of block column `q`. -/
theorem rhs_block (c : Dev nD) (t : Fin cfg0.N) (q : Fin 4096) (k : Fin 256) (s : Fin 8192)
    (hs : s.val = win0_3.index t (1 : Fin 2) * 4096 + 1 * q.val) :
    iblk m c 1 t (ix2 q k)
      = rhsRow (m ((c : Thread nD τ).loc main_arg1)) (m ((c : Thread nD τ).loc main_arg2)) s k := by
  obtain ⟨-, -, e2, e3, -, -⟩ := index_maps t
  have e : ((cfg0.win 1).blk t).view.emb (ix2 q k) = ix2 s k := funext fun a => Fin.ext (by
    match a with
    | ⟨0, _⟩ => show win0_1.index t (0 : Fin 2) * 4096 + 1 * q.val = s.val; omega
    | ⟨1, _⟩ => show win0_1.index t (1 : Fin 2) * 256 + 1 * k.val = k.val; omega)
  show V m c main_v20 (((cfg0.win 1).blk t).view.emb (ix2 q k)) = _
  exact (congrArg (V m c main_v20) e).trans
    ((congrFun (Prefix.V_rhs m c) (ix2 s k)).trans (Prefix.rhsArr_apply _ _ s k))

/-- The bias block at point `t`, entry `(0, q)`: the bias of output column `s`. -/
theorem bias_block (c : Dev nD) (t : Fin cfg0.N) (q : Fin 4096) (s : Fin 8192)
    (hs : s.val = win0_3.index t (1 : Fin 2) * 4096 + 1 * q.val) :
    iblk m c 2 t (ix2 (0 : Fin 1) q)
      = bias (m ((c : Thread nD τ).loc main_arg1)) (m ((c : Thread nD τ).loc main_arg2)) s := by
  obtain ⟨-, -, -, -, e4, e5⟩ := index_maps t
  have e : ((cfg0.win 2).blk t).view.emb (ix2 (0 : Fin 1) q) = ix2 (0 : Fin 1) s := funext fun a => Fin.ext (by
    match a with
    | ⟨0, _⟩ => show win0_2.index t (0 : Fin 2) * 1 + 1 * 0 = 0; omega
    | ⟨1, _⟩ => show win0_2.index t (1 : Fin 2) * 4096 + 1 * q.val = s.val; omega)
  show V m c main_v15 (((cfg0.win 2).blk t).view.emb (ix2 (0 : Fin 1) q)) = _
  exact (congrArg (V m c main_v15) e).trans
    ((congrFun (Prefix.V_bias m c) (ix2 (0 : Fin 1) s)).trans (Prefix.biasArr_apply _ _ s))

/-! ## What a point writes back -/

/-- Point `t` writes back block `t` of the fused energy. -/
theorem flushed_eq (c : Dev nD) (t : Fin cfg0.N) :
    (dats m 0 c).flushed 3 t = ((cfg0.win 3).blk t).view.read (Elt Ideal) (target m c) := by
  rw [Value.flushed3]
  unfold out0_3
  rw [View.canon_unit_zero zero_offsets]
  simp only [View.ld_unit_zero (S := S1024x256) zero_offsets, View.ld_unit_zero (S := S4096x256) zero_offsets,
    View.ld_unit_zero (S := S1x4096) zero_offsets]
  funext y
  obtain ⟨p, q, rfl⟩ : ∃ (p : Fin 1024) (q : Fin 4096), y = ix2 p q := ⟨y 0, y 1, eq_ix2 y⟩
  show k0_pay1 (F := Ideal) (iblk m c 0 t) (iblk m c 1 t) (iblk m c 2 t) (ix2 p q)
    = target m c (((cfg0.win 3).blk t).view.emb (ix2 p q))
  refine (Payload.payload_apply (iblk m c 0 t) (iblk m c 1 t) (iblk m c 2 t) p q).trans ?_
  unfold target fusedEnergy
  refine congrArg₂ (· + ·) (congrArg (Ideal.ofBits .f32 0x3F000000#32 * ·) (Finset.sum_congr rfl fun k _ => ?_)) ?_
  · exact congrArg₂ (· * ·)
      (lhs_block m c t p k ((((cfg0.win 3).blk t).view.emb (ix2 p q)) 0) rfl)
      (rhs_block m c t q k ((((cfg0.win 3).blk t).view.emb (ix2 p q)) 1) rfl)
  · exact bias_block m c t q ((((cfg0.win 3).blk t).view.emb (ix2 p q)) 1) rfl

/-! ## The blocks tile the output -/

/-- An output index is in point `t`'s block iff each coordinate is in the block's range on its axis. -/
theorem mem_blk (t : Fin cfg0.N) (i : S4096x8192.Idx) :
    i ∈ ((cfg0.win 3).blk t).view.set ↔ ∀ a : Fin 2, win0_3.index t a * S1024x4096.size a ≤ (i a).val
      ∧ (i a).val < win0_3.index t a * S1024x4096.size a + S1024x4096.size a := by
  show i ∈ ((View.whole main_v21).slice (win0_3.rect t)).set ↔ _
  rw [View.set_slice_whole, Rect.mem_set_unit]
  exact Iff.rfl

/-- Every output index lies in the block of the point at block row `r / 1024`, block column `s / 4096`. -/
theorem cover (i : S4096x8192.Idx) :
    ∃ t : Fin cfg0.N, (cfg0.win 3).flush t = true ∧ i ∈ ((cfg0.win 3).blk t).view.set := by
  have hi0 : (i 0).val < 4096 := (i 0).isLt
  have hi1 : (i 1).val < 8192 := (i 1).isLt
  obtain ⟨t, ht⟩ := index_onto ⟨(i 0).val / 1024, by omega⟩ ⟨(i 1).val / 4096, by omega⟩
  have q0 : win0_3.index t (0 : Fin 2) = (i 0).val / 1024 := congrFun ht 0
  have q1 : win0_3.index t (1 : Fin 2) = (i 1).val / 4096 := congrFun ht 1
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 4096 ≤ (i 1).val ∧ (i 1).val < win0_3.index t (1 : Fin 2) * 4096 + 4096
    omega

/-- After the run the output array is the fused energy. -/
theorem final (c : Dev nD) : (dats m 0 c).arrAt 3 cfg0.N = target m c :=
  (dats m 0 c).arrAt_eq_of_cover 3 (target m c) (fun t _ => flushed_eq m c t) cover

/-- The kernel's run, with the output array named: every weakly fair execution terminates with the output at the fused
    energy of the arguments, and the arguments unchanged. -/
theorem run : θ_run defs (onTc (τ := τ) (main (F := Ideal))) ⟨m, fun _ => 0, ρ⟩ fun r => ∀ c : Dev nD,
      r.2.mem ((c : Thread nD τ).loc main_v21) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KL.Blocks

end
-- ==== Proof.RefEnergy.lean ====
/-
  The reference computes the energy.

  Its stages, read one at a time at an index (the generated read-at-an-index lemmas), are: the floored variance and the
  precision; two matrix products against the transposed precision and the transposed `μ·p`, each a sum over the 128
  coordinates; the row sums `Σ μ² p`, `Σ log max(floor, σ²)`, `Σ p`; and the final `½ · (((A − 2B) + S) + c)`. Composed at
  `(b, i)` they are `energy x μ σ² b i` term for term: only the indices have to be identified (a transposed operand's index
  `(k, i)` is the untransposed `(i, k)`; a row vector spread over the batch is read at its column).
-/
import proofs.«181327_j66434554134953_2_alg».proof.Proof.Gen.ReferenceIdeal.Read
import proofs.«181327_j66434554134953_2_alg».proof.Proof.Energy

noncomputable section

namespace Cert.KL.Reference

open Cert.ReferenceIdeal Cert.ReferenceIdeal.Read Idealize.ShloMosaic Idealize.ShloMosaic.ValueIdx

variable (x0 : (⟨S4096x128, .f32⟩ : BufTy).Contents (Elt Ideal)) (x1 x2 : (⟨S8192x128, .f32⟩ : BufTy).Contents (Elt Ideal))

theorem variance_at (i : Fin 8192) (k : Fin 128) : val_main_v0 (F := Ideal) x2 (ix2 i k) = variance x2 i k := by
  rw [val_main_v0_apply, val_main_call0_v1_apply, val_main_call0_v0_apply, val_main_cst_apply]
  rfl

theorem precision_at (i : Fin 8192) (k : Fin 128) : val_main_v2 (F := Ideal) x2 (ix2 i k) = precision x2 i k := by
  rw [val_main_v2_apply, val_main_v1_apply, val_main_cst_0_apply, variance_at]
  rfl

/-- `x² @ pᵀ` at `(b, i)`. -/
theorem squares_at (b : Fin 4096) (i : Fin 8192) :
    val_main_v5 (F := Ideal) x0 x2 (ix2 b i) = ∑ k : Fin 128, (x0 (ix2 b k) * x0 (ix2 b k)) * precision x2 i k := by
  rw [val_main_v5_apply]
  refine Finset.sum_congr rfl fun k _ => ?_
  have el : lidx_main_v5 (ix2 b i) k = ix2 b k :=
    funext fun a => Fin.ext (by match a with | ⟨0, _⟩ => rfl | ⟨1, _⟩ => rfl)
  have er : idx_main_v4 (ridx_main_v5 (ix2 b i) k) = ix2 i k :=
    funext fun a => Fin.ext (by match a with | ⟨0, _⟩ => rfl | ⟨1, _⟩ => rfl)
  rw [val_main_v3_apply, val_main_v4_apply, el, er, precision_at]
  rfl

/-- `x @ (μ p)ᵀ` at `(b, i)`. -/
theorem cross_at (b : Fin 4096) (i : Fin 8192) :
    val_main_v8 (F := Ideal) x0 x1 x2 (ix2 b i) = ∑ k : Fin 128, x0 (ix2 b k) * (x1 (ix2 i k) * precision x2 i k) := by
  rw [val_main_v8_apply]
  refine Finset.sum_congr rfl fun k _ => ?_
  have el : lidx_main_v8 (ix2 b i) k = ix2 b k :=
    funext fun a => Fin.ext (by match a with | ⟨0, _⟩ => rfl | ⟨1, _⟩ => rfl)
  have er : idx_main_v7 (ridx_main_v8 (ix2 b i) k) = ix2 i k :=
    funext fun a => Fin.ext (by match a with | ⟨0, _⟩ => rfl | ⟨1, _⟩ => rfl)
  rw [val_main_v7_apply, val_main_v6_apply, el, er, precision_at]
  rfl

/-- `Σ_k μ² p` at codebook row `i`. -/
theorem meanSquares_at (i : Fin 8192) :
    val_main_v14 (F := Ideal) x1 x2 (ix1 i)
      = Ideal.ofBits .f32 0x00000000#32 + ∑ k : Fin 128, (x1 (ix2 i k) * x1 (ix2 i k)) * precision x2 i k := by
  rw [val_main_v14_apply]
  refine congrArg₂ (· + ·) rfl (Finset.sum_congr rfl fun k _ => ?_)
  have e : idx_main_v14 (ix1 i) k = ix2 i k :=
    funext fun a => Fin.ext (by match a with | ⟨0, _⟩ => rfl | ⟨1, _⟩ => rfl)
  rw [val_main_v13_apply, val_main_v12_apply, e, precision_at]
  rfl

/-- `Σ_k log max(floor, σ²)` at codebook row `i`. -/
theorem logDet_at (i : Fin 8192) :
    val_main_v19 (F := Ideal) x2 (ix1 i) = Ideal.ofBits .f32 0x00000000#32 + ∑ k : Fin 128, Ideal.log (variance x2 i k) := by
  rw [val_main_v19_apply]
  refine congrArg₂ (· + ·) rfl (Finset.sum_congr rfl fun k _ => ?_)
  have e : idx_main_v19 (ix1 i) k = ix2 i k :=
    funext fun a => Fin.ext (by match a with | ⟨0, _⟩ => rfl | ⟨1, _⟩ => rfl)
  rw [val_main_v18_apply, e, variance_at]
  rfl

/-- `Σ_k p` at codebook row `i`. -/
theorem trace_at (i : Fin 8192) :
    val_main_v20 (F := Ideal) x2 (ix1 i) = Ideal.ofBits .f32 0x00000000#32 + ∑ k : Fin 128, precision x2 i k := by
  rw [val_main_v20_apply]
  refine congrArg₂ (· + ·) rfl (Finset.sum_congr rfl fun k _ => ?_)
  have e : idx_main_v20 (ix1 i) k = ix2 i k :=
    funext fun a => Fin.ext (by match a with | ⟨0, _⟩ => rfl | ⟨1, _⟩ => rfl)
  rw [e, precision_at]

/-- The per-codebook constant at row `i`. -/
theorem offset_at (i : Fin 8192) : val_main_v23 (F := Ideal) x2 (ix1 i) = offset x2 i := by
  rw [val_main_v23_apply, val_main_v21_apply, val_main_v22_apply, val_main_cst_5_apply, logDet_at, trace_at]
  rfl

/-- The reference's result at `(b, i)` is the energy. -/
theorem result_at (b : Fin 4096) (i : Fin 8192) :
    val_main_v28 (F := Ideal) x0 x1 x2 (ix2 b i) = energy x0 x1 x2 b i := by
  have e16 : idx_main_v15 (idx_main_v16 (ix2 b i)) = ix1 i :=
    funext fun a => Fin.ext (by match a with | ⟨0, _⟩ => rfl)
  have e25 : idx_main_v24 (idx_main_v25 (ix2 b i)) = ix1 i :=
    funext fun a => Fin.ext (by match a with | ⟨0, _⟩ => rfl)
  rw [val_main_v28_apply, val_main_v27_apply, val_main_cst_6_apply, val_main_v26_apply, val_main_v17_apply,
    val_main_v11_apply, val_main_v10_apply, val_main_v9_apply, val_main_cst_1_apply, val_main_v16_apply,
    val_main_v15_apply, val_main_v25_apply, val_main_v24_apply, e16, e25, squares_at, cross_at, meanSquares_at, offset_at]
  rfl

/-- The reference's result array is the energy, index by index. -/
theorem result_eq : val_main_v28 (F := Ideal) x0 x1 x2 = fun j => energy x0 x1 x2 (j 0) (j 1) := by
  funext j
  obtain ⟨b, i, rfl⟩ : ∃ (b : Fin 4096) (i : Fin 8192), j = ix2 b i := ⟨j 0, j 1, eq_ix2 j⟩
  exact result_at x0 x1 x2 b i

end Cert.KL.Reference

end
-- ==== Proof.Finite.lean ====
/-
  The precondition says every entry of the three arguments is a real number.

  The printed predicate is `all(|x| < +∞) ∧ all(|μ| < +∞) ∧ all(|σ²| < +∞)`, each `all` a reduction by `and` of the
  entrywise comparisons down to one truth value. That value being 1 gives each comparison; and on the extended reals
  `max(a, −a) < +∞` excludes both `a = +∞` and `a = −∞`, so `a` is (the coercion of) a real.
-/
import proofs.«181327_j66434554134953_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.KL.Finite

open Cert.Pre_finite_inputs Idealize.ShloMosaic

instance : Subsingleton S_.Idx := ⟨fun a b => funext fun d => d.elim0⟩

/-- The word `0x7F800000` denotes `+∞`. -/
theorem ofBits_inf : Ideal.ofBits .f32 0x7F800000#32 = (⊤ : EReal) := by
  simp [Ideal.ofBits, Ideal.ieee]

/-- An extended real whose absolute value is below `+∞` is a real. -/
theorem real_of_abs_lt_top (a : EReal) (h : max a (-a) < ⊤) : ∃ r : ℝ, a = (r : EReal) := by
  induction a using EReal.rec with
  | bot => exact absurd h (by simp)
  | coe r => exact ⟨r, rfl⟩
  | top => exact absurd h (by simp)

/-- One entrywise comparison `|a| < +∞` that came out 1. -/
theorem real_of_cmp (a : EReal)
    (h : FloatOps.cmpf (F := Ideal) (φ := .f32) .olt (FloatOps.hostAbsf (F := Ideal) (φ := .f32) a)
      (FloatOps.ofBits (F := Ideal) .f32 0x7F800000#32) = 1#1) : ∃ r : ℝ, a = (r : EReal) := by
  refine real_of_abs_lt_top a ?_
  have h' : BitVec.ofBool (decide (max a (-a) < Ideal.ofBits .f32 0x7F800000#32)) = 1#1 := h
  rw [ofBits_inf] at h'
  by_contra hn
  rw [decide_eq_false hn] at h'
  exact absurd h' (by decide)

variable [Cert.Pre_finite_inputs.Facts]

/-- The predicate at the ideal values, all ones, makes every entry of every argument real. -/
theorem entries_real (x : FVec Ideal S4096x128 .f32) (mean diag : FVec Ideal S8192x128 .f32)
    (h : Cert.Pre_finite_inputs.fn (F := Ideal) x mean diag = fun _ => 1#1) :
    (∀ j, ∃ r : ℝ, x j = (r : EReal)) ∧ (∀ j, ∃ r : ℝ, mean j = (r : EReal)) ∧ (∀ j, ∃ r : ℝ, diag j = (r : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  refine ⟨fun j => ?_, fun j => ?_, fun j => ?_⟩
  · exact real_of_cmp (x j) (Host.reduce_andi_all _ _ _ _ _ h0' j)
  · exact real_of_cmp (mean j) (Host.reduce_andi_all _ _ _ _ _ h1 j)
  · exact real_of_cmp (diag j) (Host.reduce_andi_all _ _ _ _ _ h2 j)

end Cert.KL.Finite

end
-- ==== Proof.lean ====
/-
  A diagonal-Gaussian KL energy, computed two ways, is one function on the extended reals.

  For batch rows `x_b` and a codebook of diagonal Gaussians (means `μ_i`, variances `σ²_i` floored at `1e-6`), with
  precision `p = 1 / max(floor, σ²)`, both programs return the [4096, 8192] array

      E(b, i) = ½ · ( Σ_k x_bk² p_ik − 2 Σ_k x_bk μ_ik p_ik + Σ_k μ_ik² p_ik + Σ_k log max(floor, σ²_ik) + Σ_k p_ik − 128 ).

  The reference forms the three coordinate sums separately (two matrix products over 128 coordinates and a row sum)
  and halves at the end. The kernel's host part builds the 256-column operands `[x², −2x]` and `[p, μ p]` and a bias row
  `½ · (Σ μ (μ p) + Σ log max(floor, σ²) + Σ p − 128)`; its body, on a 2 × 4 grid of [1024, 4096] output blocks, stores
  `½ · (lhs · rhsᵀ) + bias`. The two agree entry by entry once every input entry is a real number (the precondition):
  then the floored variance is a positive real, so every term is real and the identity — split the 256-term sum into its
  halves, take `−2` out of the second, distribute `½` — is one of real arithmetic (Proof/Energy.lean).

  The modules: Literals (the float words as reals), Energy (the two arrangements and the law), RefEnergy (the reference's
  stages are the energy), Prefix and PrefixAt (the kernel's host arrays, entry by entry), Payload (the stored block,
  entry by entry), Blocks (the eight blocks tile the output, which ends at the fused arrangement), Finite (the
  precondition makes every entry real). The ideal pass rewrote nothing in the kernel, so the idealization claim is
  trivial; the three frames are the generated ones.
-/
import proofs.«181327_j66434554134953_2_alg».proof.Defs
import proofs.«181327_j66434554134953_2_alg».proof.Proof.Gen.Kernel
import proofs.«181327_j66434554134953_2_alg».proof.Proof.Gen.Kernel.Skeleton
import proofs.«181327_j66434554134953_2_alg».proof.Proof.Gen.Kernel.Launch
import proofs.«181327_j66434554134953_2_alg».proof.Proof.Gen.Kernel.Points
import proofs.«181327_j66434554134953_2_alg».proof.Proof.Gen.Kernel.Frame
import proofs.«181327_j66434554134953_2_alg».proof.Proof.Gen.KernelIdeal
import proofs.«181327_j66434554134953_2_alg».proof.Proof.Gen.KernelIdeal.Skeleton
import proofs.«181327_j66434554134953_2_alg».proof.Proof.Gen.KernelIdeal.Launch
import proofs.«181327_j66434554134953_2_alg».proof.Proof.Gen.KernelIdeal.Points
import proofs.«181327_j66434554134953_2_alg».proof.Proof.Gen.KernelIdeal.Frame
import proofs.«181327_j66434554134953_2_alg».proof.Proof.Gen.ReferenceIdeal
import proofs.«181327_j66434554134953_2_alg».proof.Proof.Gen.Pre_finite_inputs
import proofs.«181327_j66434554134953_2_alg».proof.Proof.Gen.KernelIdeal.Value
import proofs.«181327_j66434554134953_2_alg».proof.Proof.Gen.ReferenceIdeal.Run
import proofs.«181327_j66434554134953_2_alg».proof.Proof.Gen.ReferenceIdeal.Read
import proofs.«181327_j66434554134953_2_alg».proof.Proof.Blocks
import proofs.«181327_j66434554134953_2_alg».proof.Proof.RefEnergy
import proofs.«181327_j66434554134953_2_alg».proof.Proof.Finite
import Idealize.ShloMosaic.Adequacy
import Idealize.ShloMosaic.Init

noncomputable section

namespace Cert.Proof

open Idealize.ShloMosaic Idealize.SL.Sem

/-- The word-level kernel terminates, faults nowhere and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From memories that agree on the arguments, each of them entrywise real, both programs end with the energy
    `E(b, i)` at every entry of their result: the kernel at the fused arrangement, which is the energy by the law; the
    reference at the energy directly. -/
theorem algebraic : Cert.algebraic_KernelIdeal_ReferenceIdeal := by
  intro m ρ m' ρ' hpre hagree
  refine ⟨fun c => fun j => Cert.KL.energy
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (j 0) (j 1), ?_, ?_⟩
  · refine (θ_run Cert.KernelIdeal.defs _ _).mono (fun r h c => ⟨(h c).1.trans ?_, (h c).2⟩) (Cert.KL.Blocks.run m ρ)
    obtain ⟨hx, hm, hd⟩ := Cert.KL.Finite.entries_real _ _ _ (hpre c)
    funext j
    exact Cert.KL.fusedEnergy_eq_energy _ _ _ hx hm hd (j 0) (j 1)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v28_eq, Cert.KL.Reference.result_eq, (hagree c).1, (hagree c).2.1, (hagree c).2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
